-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x256 .f32) (main_arg1 : IVec S1600000 32) (main_arg2 : IVec S1600000 32) (main_arg3 : FVec F S1600000 .f32) (main_arg4 : FVec F S256x128 .f32) (main_arg5 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S100000x128 : Shape := ⟨2, ![100000, 128]⟩
abbrev S5000x256 : Shape := ⟨2, ![5000, 256]⟩
abbrev S5000x128 : Shape := ⟨2, ![5000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 25
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S100000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S1x128, .f32⟩
  | .hbm, ⟨24, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S100000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The idealized kernel's run with its result named. The program is two kernel regions with a stretch of host
  operations between them; its memory after the run is the fold of those three segments from the launch memory.
  Here the run is stated once more with the result buffer in the post: every weakly fair execution terminates,
  nothing faults, the result buffer ends at the fold's contents for it, and the six argument arrays end as launched.
  What that content is, as a function of the arguments, is the business of the modules that import this one.
-/
import proofs.«155374_j52587579572945_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds what the
    second region's write-backs leave in it, and the arguments are unchanged. -/
theorem run_result : θ_run defs (onTc (τ := τ) (main (F := F))) ⟨m, fun _ => 0, ρ⟩ (fun r => ∀ c : Dev nD,
      r.2.mem ((c.tc : Thread nD τ).loc main_v15) = W3 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v15 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Hand

end
-- ==== Proof.Spec.lean ====
/-
  The mathematics both programs compute, stated once and about neither program.

  With x : [100000, 256], w : [256, 128] over the extended reals, the dense transform is the matrix product
      h i = ∑ k < 256, x (i₀, k) · w (k, i₁)        (i = (i₀, i₁), i₀ < 100000, i₁ < 128),
  a finite sum of products, so no order of summation or tiling of the rows enters. The layer's result is then
      out i = max (agg i + b i₁) 0,
  where agg is the edge aggregation of h (a gather of h's rows by the column indices, a scaling by the edge
  values, a scatter-add by the row indices into zeros). The aggregation is the same composition of host operations
  in both programs and is never opened: it is applied to equal arguments.
-/
import Idealize.ShloMosaic.PureOps.Ideal
import Idealize.ShloMosaic.Lib.ValueIdx

noncomputable section

namespace Cert.Spec

open Idealize.ShloMosaic

abbrev SX : Shape := ⟨2, ![100000, 256]⟩
abbrev SW : Shape := ⟨2, ![256, 128]⟩
abbrev SH : Shape := ⟨2, ![100000, 128]⟩

/-- Entry (i₀, k) of the left factor: row i₀ of the result's index, column k. -/
abbrev xAt (i : SH.Idx) (k : Fin 256) : SX.Idx := fun a => match a with
  | ⟨0, _⟩ => ⟨(i 0).val, (i 0).isLt⟩
  | ⟨1, _⟩ => ⟨k.val, k.isLt⟩

/-- Entry (k, i₁) of the right factor: row k, column i₁ of the result's index. -/
abbrev wAt (i : SH.Idx) (k : Fin 256) : SW.Idx := fun a => match a with
  | ⟨0, _⟩ => ⟨k.val, k.isLt⟩
  | ⟨1, _⟩ => ⟨(i 1).val, (i 1).isLt⟩

/-- The matrix product x · w, entry by entry. -/
def product (x : FVec Ideal SX .f32) (w : FVec Ideal SW .f32) : FVec Ideal SH .f32 :=
  fun i => ∑ k : Fin 256, x (xAt i k) * w (wAt i k)

abbrev SB : Shape := ⟨2, ![1, 128]⟩

/-- Entry (0, i₁) of the bias kept as one row: the result's column. -/
abbrev bAt (i : SH.Idx) : SB.Idx := fun a => match a with
  | ⟨0, _⟩ => ⟨0, Nat.one_pos⟩
  | ⟨1, _⟩ => ⟨(i 1).val, (i 1).isLt⟩

/-- The last step: add the bias of the entry's column and clamp below at zero. -/
def biasRelu (agg : FVec Ideal SH .f32) (b : FVec Ideal SB .f32) : FVec Ideal SH .f32 :=
  fun i => FloatOps.maximumf (FloatOps.addf (agg i) (b (bAt i))) (FloatOps.ofBits .f32 0x00000000#32)

end Cert.Spec

end
-- ==== Proof.Region0.lean ====
/-
  The first kernel region: the dense transform, 20 row blocks of 5000 rows.

  At grid point t the region reads rows 5000·t … 5000·t + 4999 of x (all 256 columns) and the whole of w, multiplies the
  two blocks into a zero accumulator, and writes the 5000 × 128 result back as rows 5000·t … 5000·t + 4999 of h. A change
  of float format is the identity on the extended reals, and a product into a zero accumulator is the plain sum of
  products; so entry (p, q) of the block written at t is ∑ k, x (5000·t + p, k) · w (k, q), which is entry
  (5000·t + p, q) of the whole product x · w. Every row r lies in the block of the point r / 5000, so after the region
  the array holds x · w, whatever the region found in it.
-/
import proofs.«155374_j52587579572945_1_alg».proof.Proof.Gen.KernelIdeal.Frame
import proofs.«155374_j52587579572945_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Cert.Spec (product xAt wAt)

/-- Both offsets of a whole-block access are zero. -/
theorem zero_offsets : (![0, 0] : Fin 2 → Nat) = fun _ => 0 := funext fun a => by fin_cases a <;> rfl

/-! ## One block's product at an entry -/

/-- Entry (p, k) of a 5000 × 256 block, for the entry j = (p, q) of the block product. -/
abbrev lrow (j : S5000x128.Idx) (k : Fin 256) : S5000x256.Idx := fun a => match a with
  | ⟨0, _⟩ => ⟨(j 0).val, (j 0).isLt⟩
  | ⟨1, _⟩ => ⟨k.val, k.isLt⟩

/-- Entry (k, q) of the 256 × 128 factor. -/
abbrev rcol (j : S5000x128.Idx) (k : Fin 256) : S256x128.Idx := fun a => match a with
  | ⟨0, _⟩ => ⟨k.val, k.isLt⟩
  | ⟨1, _⟩ => ⟨(j 1).val, (j 1).isLt⟩

theorem lhs_coord0 (j : S5000x128.Idx) (q : dot_S5000x256_S256x128_S5000x128_1_0_0_1_n_n.contr.Idx) :
    (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_coord1 (j : S5000x128.Idx) (q : dot_S5000x256_S256x128_S5000x128_1_0_0_1_n_n.contr.Idx) :
    (dot_S5000x256_S256x128_S5000x128_1_0_0_1_n_n.lhsIdx j q 1).val = (q ⟨0, by decide⟩).val :=
  dot_S5000x256_S256x128_S5000x128_1_0_0_1_n_n.lhsIdx_val_of_single rfl j q
theorem rhs_coord0 (j : S5000x128.Idx) (q : dot_S5000x256_S256x128_S5000x128_1_0_0_1_n_n.contr.Idx) :
    (dot_S5000x256_S256x128_S5000x128_1_0_0_1_n_n.rhsIdx j q 0).val = (q ⟨0, by decide⟩).val :=
  dot_S5000x256_S256x128_S5000x128_1_0_0_1_n_n.rhsIdx_val_of_single rfl j q
theorem rhs_coord1 (j : S5000x128.Idx) (q : dot_S5000x256_S256x128_S5000x128_1_0_0_1_n_n.contr.Idx) :
    (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- What the body stores, read at an entry: the sum over the 256 contracted positions of the products of the two
    loaded blocks' entries (the narrowing of both operands is the identity; the accumulator is zero). -/
theorem block_product_apply (x0 : Vec Ideal S5000x256 .f32) (x1 : Vec Ideal S256x128 .f32) (j : S5000x128.Idx) :
    k0_pay1 (F := Ideal) x0 x1 j = ∑ k : Fin 256, x0 (lrow j k) * x1 (rcol j k) := by
  unfold k0_pay1
  show FloatOps.matmul (F := Ideal) dot_S5000x256_S256x128_S5000x128_1_0_0_1_n_n none (truncf (F := Ideal) .bf16 x0 bitsLt_bf16_f32) (truncf (F := Ideal) .bf16 x1 bitsLt_bf16_f32) (constant (F := Ideal) S5000x128 .f32 0x00000000#32) j = _
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k) = lrow j k := funext fun a => Fin.ext (by
    match a with
    | ⟨0, _⟩ => exact lhs_coord0 _ _
    | ⟨1, _⟩ => exact (lhs_coord1 _ _).trans hk)
  have er : dot_S5000x256_S256x128_S5000x128_1_0_0_1_n_n.rhsIdx j ((ValueIdx.contrEquiv1 dot_S5000x256_S256x128_S5000x128_1_0_0_1_n_n 256 rfl rfl).symm k) = rcol j k := funext fun a => Fin.ext (by
    match a with
    | ⟨0, _⟩ => exact (rhs_coord0 _ _).trans hk
    | ⟨1, _⟩ => exact rhs_coord1 _ _)
  rw [el, er]
  rfl

/-! ## From the blocks to the array -/

section
variable (V : (c : Dev nD) → (b : Ref sig .tc) → Buf (Elt Ideal) ((c : Thread nD τ).loc b))

/-- Where the three windows' blocks sit at point t: the x block and the result block at row block t, all columns;
    the w block is the whole of w. Decided over the 20 points. -/
theorem block_places0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the product of the two argument arrays as the region finds them. -/
theorem flushed0_eq (c : Dev nD) (t : Fin cfg0.N) :
    (dat0 V c).flushed 2 t = ((cfg0.win 2).blk t).view.read (Elt Ideal) (product (V c main_arg0) (V c main_arg4)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x128) zero_offsets]
  obtain ⟨e0, e1, e2, e3, e4, e5⟩ := block_places0 t
  funext j
  show k0_pay1 (F := Ideal) (iblk0 V c 0 t) (iblk0 V c 1 t) j = product (V c main_arg0) (V c main_arg4) (((cfg0.win 2).blk t).view.emb j)
  rw [block_product_apply]
  unfold product
  refine Finset.sum_congr rfl fun k _ => ?_
  have hx : iblk0 V c 0 t (lrow j k) = V c main_arg0 (xAt (((cfg0.win 2).blk t).view.emb j) k) := by
    show V c main_arg0 (((cfg0.win 0).blk t).view.emb (lrow j k)) = V c main_arg0 (xAt (((cfg0.win 2).blk t).view.emb j) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have hw : iblk0 V c 1 t (rcol j k) = V c main_arg4 (wAt (((cfg0.win 2).blk t).view.emb j) k) := by
    show V c main_arg4 (((cfg0.win 1).blk t).view.emb (rcol j k)) = V c main_arg4 (wAt (((cfg0.win 2).blk t).view.emb j) k)
    refine congrArg (V c main_arg4) (funext fun a => Fin.ext ?_)
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  rw [hx, hw]

/-- An index of the array is in point t's block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Every entry of the array is in the block of the point its row falls in. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  have ht : (i 0).val / 5000 < cfg0.N := by show (i 0).val / 5000 < grid0.N; rw [hN]; omega
  refine ⟨⟨(i 0).val / 5000, ht⟩, flush0_2 _, ?_⟩
  obtain ⟨e0, e1, e2, e3, e4, e5⟩ := block_places0 ⟨(i 0).val / 5000, ht⟩
  rw [mem_block0]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; rw [e4]; show (i 0).val / 5000 * 5000 ≤ (i 0).val ∧ (i 0).val < (i 0).val / 5000 * 5000 + 5000; omega
  | ⟨1, _⟩ => show win0_2.index ⟨(i 0).val / 5000, ht⟩ (1 : Fin 2) * 128 ≤ (i 1).val ∧ (i 1).val < win0_2.index ⟨(i 0).val / 5000, ht⟩ (1 : Fin 2) * 128 + 128; rw [e5]; omega

/-- The array after the region: the product of the two argument arrays as the region found them. -/
theorem final0 (c : Dev nD) : (dat0 V c).arrAt 2 cfg0.N = product (V c main_arg0) (V c main_arg4) :=
  (dat0 V c).arrAt_eq_of_cover 2 (product (V c main_arg0) (V c main_arg4)) (fun t _ => flushed0_eq V c t) covered0

end

end Cert.KernelIdeal.Hand

end
-- ==== Proof.Region1.lean ====
/-
  The second kernel region: bias and clamp, 20 row blocks of 5000 rows.

  At grid point t the region reads rows 5000·t … 5000·t + 4999 of the aggregated array and the bias kept as one row of
  128 entries, adds to every entry the bias of its column, takes the maximum with zero, and writes the block back as the
  same rows of the result. The body is pointwise but for the bias, which is repeated down the rows; so entry (p, q) of
  the block written at t is max (agg (5000·t + p, q) + b (0, q)) 0, which is the entry (5000·t + p, q) of the one
  whole-array function biasRelu agg b. Every row r lies in the block of the point r / 5000, so after the region the
  result array holds biasRelu of the two arrays the region found.
-/
import proofs.«155374_j52587579572945_1_alg».proof.Proof.Gen.KernelIdeal.Frame
import proofs.«155374_j52587579572945_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Cert.Spec (biasRelu bAt)

/-- Both offsets of a whole-block access are zero. -/
theorem zero_offsets1 : (![0, 0] : Fin 2 → Nat) = fun _ => 0 := funext fun a => by fin_cases a <;> rfl

/-! ## One block's bias and clamp at an entry -/

/-- Entry (0, q) of the bias row, for the entry j = (p, q) of the block. -/
abbrev brow (j : S5000x128.Idx) : S1x128.Idx := fun a => match a with
  | ⟨0, _⟩ => ⟨0, Nat.one_pos⟩
  | ⟨1, _⟩ => ⟨(j 1).val, (j 1).isLt⟩

/-- What the body stores, read at an entry: the loaded entry plus the bias of its column, clamped below at zero
    (the two casts to the same shape are the identity; the bias row is repeated down the rows). -/
theorem bias_relu_apply (x0 : Vec Ideal S5000x128 .f32) (x1 : Vec Ideal S1x128 .f32) (j : S5000x128.Idx) :
    k1_pay1 (F := Ideal) x0 x1 j
      = FloatOps.maximumf (F := Ideal) (FloatOps.addf (F := Ideal) (x0 j) (x1 (brow j))) (FloatOps.ofBits (F := Ideal) .f32 0x00000000#32) := by
  unfold k1_pay1
  show FloatOps.maximumf (F := Ideal) (FloatOps.addf (F := Ideal) (shapeCast S5000x128 x0 shapeCasts_S5000x128_S5000x128 j)
      (broadcastTo S5000x128 (shapeCast S1x128 x1 shapeCasts_S1x128_S1x128) broadcasts_S1x128_S5000x128 j)) (FloatOps.ofBits (F := Ideal) .f32 0x00000000#32) = _
  rw [shapeCast_self, shapeCast_self]
  rw [broadcastTo_apply x1 broadcasts_S1x128_S5000x128 j (brow j) (fun a => by
    match a with
    | ⟨0, _⟩ => show 0 = if (1 : Nat) = 1 then 0 else _; rw [if_pos rfl]
    | ⟨1, _⟩ => show (j 1).val = if (128 : Nat) = 1 then 0 else (j 1).val; rw [if_neg (by decide)])]

/-! ## From the blocks to the array -/

section
variable (V : (c : Dev nD) → (b : Ref sig .tc) → Buf (Elt Ideal) ((c : Thread nD τ).loc b))

/-- Where the three windows' blocks sit at point t: the input block and the result block at row block t, all
    columns; the bias block is the whole bias row. Decided over the 20 points. -/
theorem block_places1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point t writes back is block t of biasRelu of the two arrays as the region finds them. -/
theorem flushed1_eq (c : Dev nD) (t : Fin cfg1.N) :
    (dat1 V c).flushed 2 t = ((cfg1.win 2).blk t).view.read (Elt Ideal) (biasRelu (V c main_v13) (V c main_v14)) := by
  show (cfg1.win 2).cut (grid1.coords t) ((dat1 V c).after 2 t) = _
  rw [after1_2]
  unfold out1_2
  rw [View.canon_unit_zero zero_offsets1]
  simp only [View.ld_unit_zero (S := S5000x128) zero_offsets1, View.ld_unit_zero (S := S1x128) zero_offsets1]
  obtain ⟨e0, e1, e2, e3, e4, e5⟩ := block_places1 t
  funext j
  show k1_pay1 (F := Ideal) (iblk1 V c 0 t) (iblk1 V c 1 t) j = biasRelu (V c main_v13) (V c main_v14) (((cfg1.win 2).blk t).view.emb j)
  rw [bias_relu_apply]
  unfold biasRelu
  have hx : iblk1 V c 0 t j = V c main_v13 (((cfg1.win 2).blk t).view.emb j) := by
    show V c main_v13 (((cfg1.win 0).blk t).view.emb j) = V c main_v13 (((cfg1.win 2).blk t).view.emb j)
    refine congrArg (V c main_v13) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have hb : iblk1 V c 1 t (brow j) = V c main_v14 (bAt (((cfg1.win 2).blk t).view.emb j)) := by
    show V c main_v14 (((cfg1.win 1).blk t).view.emb (brow j)) = V c main_v14 (bAt (((cfg1.win 2).blk t).view.emb j))
    refine congrArg (V c main_v14) (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [hx, hb]

/-- An index of the array is in point t's block iff each coordinate is in the block's range on its axis. -/
theorem mem_block1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v15).slice (win1_2.rect t)).set ↔ _
  rw [View.set_slice_whole, Rect.mem_set_unit]
  exact Iff.rfl

/-- Every entry of the array is in the block of the point its row falls in. -/
theorem covered1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 20 := N_1
  have ht : (i 0).val / 5000 < cfg1.N := by show (i 0).val / 5000 < grid1.N; rw [hN]; omega
  refine ⟨⟨(i 0).val / 5000, ht⟩, flush1_2 _, ?_⟩
  obtain ⟨e0, e1, e2, e3, e4, e5⟩ := block_places1 ⟨(i 0).val / 5000, ht⟩
  rw [mem_block1]
  intro a
  match a with
  | ⟨0, _⟩ => show win1_2.index ⟨(i 0).val / 5000, ht⟩ (0 : Fin 2) * 5000 ≤ (i 0).val ∧ (i 0).val < win1_2.index ⟨(i 0).val / 5000, ht⟩ (0 : Fin 2) * 5000 + 5000; rw [e4]; show (i 0).val / 5000 * 5000 ≤ (i 0).val ∧ (i 0).val < (i 0).val / 5000 * 5000 + 5000; omega
  | ⟨1, _⟩ => show win1_2.index ⟨(i 0).val / 5000, ht⟩ (1 : Fin 2) * 128 ≤ (i 1).val ∧ (i 1).val < win1_2.index ⟨(i 0).val / 5000, ht⟩ (1 : Fin 2) * 128 + 128; rw [e5]; omega

/-- The result array after the region: biasRelu of the aggregated array and the bias row as the region found them. -/
theorem final1 (c : Dev nD) : (dat1 V c).arrAt 2 cfg1.N = biasRelu (V c main_v13) (V c main_v14) :=
  (dat1 V c).arrAt_eq_of_cover 2 (biasRelu (V c main_v13) (V c main_v14)) (fun t _ => flushed1_eq V c t) covered1

end

end Cert.KernelIdeal.Hand

end
-- ==== Proof.Layer.lean ====
/-
  The layer as one function of its six arguments.

      layer x rows cols vals w b = biasRelu (aggregate (x · w) rows cols vals) (b as one row)

  aggregate is the sparse adjacency product in coordinate form, written as the host operations both programs apply to
  the dense transform h: negative column indices wrap by the number of nodes, row h[col e] is gathered for every edge e
  and scaled by vals e, and the scaled rows are scatter-added by rows e into an array of zeros. Which entry a gather or a
  scatter touches depends on the index arrays' values; nothing below looks inside: the two programs apply this same
  composition, and it is enough that they apply it to equal arrays.
-/
import proofs.«155374_j52587579572945_1_alg».proof.Proof.Gen.ReferenceIdeal
import proofs.«155374_j52587579572945_1_alg».proof.Proof.Spec

noncomputable section

namespace Cert.Layer

open Cert.ReferenceIdeal Cert.ReferenceIdeal.Gen Idealize.ShloMosaic
open Cert.Spec (product biasRelu SB)

/-- The edge aggregation of a node-feature array h: out[rows e] += vals e · h[cols e] over all edges e, from zeros. -/
def aggregate (h : FVec Ideal S100000x128 .f32) (rows cols : IVec S1600000 32) (vals : FVec Ideal S1600000 .f32) :
    FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 rows)
    (mulf (F := Ideal) (broadcastInDim S1600000x128 ![0, 1] bcast_S1600000x1_S1600000x128_0_1 (broadcastInDim S1600000x1 ![0] bcast_S1600000_S1600000x1_0 vals))
      (Host.gather gather_S100000x128_S1600000x1_S1600000x128_1_0_n_n_0_1_1128 h
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols))))

/-- The bias of 128 entries kept as one row of 128 (the same entries in the same order). -/
def biasRow (b : FVec Ideal S128 .f32) : FVec Ideal S1x128 .f32 :=
  shapeCast S1x128 b (by decide)

/-- The whole layer. -/
def layer (x : FVec Ideal S100000x256 .f32) (rows cols : IVec S1600000 32) (vals : FVec Ideal S1600000 .f32)
    (w : FVec Ideal S256x128 .f32) (b : FVec Ideal S128 .f32) : FVec Ideal S100000x128 .f32 :=
  biasRelu (aggregate (product x w) rows cols vals) (biasRow b)

end Cert.Layer

end
-- ==== Proof.KernelValue.lean ====
/-
  The idealized kernel computes the layer.

  Its memory after the run is a fold of three segments. The first region leaves x · w in its output array and touches
  nothing else. The host stretch between the regions then writes the aggregation of that array by the three edge arrays —
  which no segment has written, so they are as launched — and the bias reshaped to one row. The second region reads
  those two arrays and leaves biasRelu of them in the result buffer. Composed, the result buffer holds the layer of
  the six launch arrays.
-/
import proofs.«155374_j52587579572945_1_alg».proof.Proof.KernelRun
import proofs.«155374_j52587579572945_1_alg».proof.Proof.Region0
import proofs.«155374_j52587579572945_1_alg».proof.Proof.Region1
import proofs.«155374_j52587579572945_1_alg».proof.Proof.Layer
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Cert.Spec (product biasRelu)
open Cert.Layer (aggregate biasRow layer)

variable (m : (ℓ : Loc nD τ sig) → Buf (Elt Ideal) ℓ) (ρ : Dev nD → PrngReg)

/-- After the first region its output array holds the product of the launch contents of x and w. -/
theorem after_region0 (c : Dev nD) :
    W1 m ρ c (Proc.devRef .tc main_v0) = product (m ((c.tc : Thread nD τ).loc main_arg0)) (m ((c.tc : Thread nD τ).loc main_arg4)) :=
  (W1_arr m ρ c 2).trans (final0 (V0 m ρ) c)

/-- The second region finds, in its first input array, the aggregation of that product by the launch contents of the
    edge arrays. -/
theorem entry_aggregated (c : Dev nD) :
    V2 m ρ c main_v13 = aggregate (product (m ((c.tc : Thread nD τ).loc main_arg0)) (m ((c.tc : Thread nD τ).loc main_arg4)))
      (m ((c.tc : Thread nD τ).loc main_arg1)) (m ((c.tc : Thread nD τ).loc main_arg2)) (m ((c.tc : Thread nD τ).loc main_arg3)) := by
  show StableHlo.after hostOps1 (W1 m ρ c) (Proc.devRef .tc main_v13) = _
  after_results
  rw [W1_of_ne m ρ c main_arg1 (by decide), W1_of_ne m ρ c main_arg2 (by decide), W1_of_ne m ρ c main_arg3 (by decide),
    after_region0]
  rfl

/-- and, in its second, the launch contents of the bias as one row. -/
theorem entry_bias (c : Dev nD) : V2 m ρ c main_v14 = biasRow (m ((c.tc : Thread nD τ).loc main_arg5)) := by
  show StableHlo.after hostOps1 (W1 m ρ c) (Proc.devRef .tc main_v14) = _
  after_results
  rw [W1_of_ne m ρ c main_arg5 (by decide)]
  rfl

/-- The result buffer after the run is the layer of the six launch arrays. -/
theorem result_eq (c : Dev nD) :
    W3 m ρ c (Proc.devRef .tc main_v15) = layer (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  rw [show W3 m ρ c (Proc.devRef .tc main_v15) = (dat1 (V2 m ρ) c).arrAt 2 cfg1.N from W3_arr m ρ c 2, final1 (V2 m ρ) c,
    entry_aggregated, entry_bias]
  rfl

/-- The run, read: every weakly fair execution terminates without a fault with the result buffer at the layer of the
    launch arrays and the arguments unchanged. -/
theorem run : θ_run defs (onTc (τ := τ) (main (F := Ideal))) ⟨m, fun _ => 0, ρ⟩ (fun r => ∀ c : Dev nD,
      r.2.mem ((c.tc : Thread nD τ).loc main_v15) = layer (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_eq m ρ c), (h c).2⟩) (run_result m ρ)

end Cert.KernelIdeal.Hand

end
-- ==== Proof.RefValue.lean ====
/-
  The reference computes the layer.

  Its dense transform is one whole matrix product, which at an entry is the same sum over the 256 contracted positions
  as the specification's. Its aggregation is the specification's composition applied to that product. Its last two steps
  repeat the bias down the rows, add, and take the maximum with a zero array: at an entry that is
  max (agg i + b i₁) 0, and reading the bias kept as one row at (0, i₁) gives the same b i₁.
-/
import proofs.«155374_j52587579572945_1_alg».proof.Proof.Gen.ReferenceIdeal.Read
import proofs.«155374_j52587579572945_1_alg».proof.Proof.Layer
import Idealize.ShloMosaic.Lib.Pipeline.Value

noncomputable section

namespace Cert.ReferenceIdeal.Hand

open Cert.ReferenceIdeal Cert.ReferenceIdeal.Gen Cert.ReferenceIdeal.Read Idealize.ShloMosaic
open Cert.Spec (product biasRelu bAt)
open Cert.Layer (aggregate biasRow layer)

/-- The reference's matrix product is the specification's, entry by entry. -/
theorem dense_eq (x : (⟨S100000x256, .f32⟩ : BufTy).Contents (Elt Ideal)) (w : (⟨S256x128, .f32⟩ : BufTy).Contents (Elt Ideal)) :
    val_main_v0 (F := Ideal) x w = product x w :=
  funext fun i => (val_main_v0_apply x w i).trans rfl

/-- The reference's aggregated array is the specification's aggregation of the product. -/
theorem aggregated_eq (x : (⟨S100000x256, .f32⟩ : BufTy).Contents (Elt Ideal)) (rows cols : (⟨S1600000, .i32⟩ : BufTy).Contents (Elt Ideal))
    (vals : (⟨S1600000, .f32⟩ : BufTy).Contents (Elt Ideal)) (w : (⟨S256x128, .f32⟩ : BufTy).Contents (Elt Ideal)) :
    val_main_v13 (F := Ideal) x rows cols vals w = aggregate (product x w) rows cols vals := by
  rw [← dense_eq]
  rfl

/-- The bias kept as one row, read at (0, q), is the bias at q. -/
theorem biasRow_apply (b : (⟨S128, .f32⟩ : BufTy).Contents (Elt Ideal)) (i : S100000x128.Idx) :
    biasRow b (bAt i) = b (idx_main_v14 (idx_main_v15 i)) := by
  unfold biasRow
  rw [shapeCast_addUnit_apply ![128] b _ (bAt i)]
  exact congrArg b (funext fun a => Fin.ext (by match a with | ⟨0, _⟩ => rfl))

/-- The reference's result is the layer of its arguments. -/
theorem result_eq (x : (⟨S100000x256, .f32⟩ : BufTy).Contents (Elt Ideal)) (rows cols : (⟨S1600000, .i32⟩ : BufTy).Contents (Elt Ideal))
    (vals : (⟨S1600000, .f32⟩ : BufTy).Contents (Elt Ideal)) (w : (⟨S256x128, .f32⟩ : BufTy).Contents (Elt Ideal))
    (b : (⟨S128, .f32⟩ : BufTy).Contents (Elt Ideal)) :
    val_main_v17 (F := Ideal) x rows cols vals w b = layer x rows cols vals w b := by
  funext i
  rw [val_main_v17_apply, val_main_v16_apply, val_main_v15_apply, val_main_v14_apply, val_main_call0_v0_apply,
    val_main_call0_cst_apply, aggregated_eq]
  unfold layer biasRelu
  rw [biasRow_apply]

end Cert.ReferenceIdeal.Hand

end
-- ==== Proof.lean ====
/-
  A graph-convolution layer on 100000 nodes and 1600000 weighted edges: the kernel against its reference.

  Both programs compute, from node features x : [100000, 256], edges (rows e, cols e, vals e), weights w : [256, 128] and
  bias b : [128],
      out = max (A (x · w) + b) 0,
  where A is the sparse adjacency in coordinate form applied by a gather, a scaling and a scatter-add. The kernel computes
  x · w in 20 row blocks of 5000 rows with both operands narrowed to a 16-bit format and a zero accumulator, lets the host
  aggregate, and adds the bias and clamps in 20 row blocks again; the reference computes one whole matrix product and
  the same aggregation, then adds the bias repeated down the rows and clamps. On the extended reals a change of float format
  is the identity and a matrix product into zero is the sum of products at each entry, so the blocked product is the
  whole one entry by entry; the aggregation is one composition of host operations applied to equal arrays; and the
  last step is the same maximum of the same sum at each entry. No law that needs finiteness is used: the products and
  sums are the same expressions on both sides, only arranged in blocks on one of them.

  The claims: the three programs run to the end without a fault and leave their arguments unchanged (the kernel's and
  its idealization's by their generated frames, the reference's by its generated run); the idealization rewrote no
  operation, so there is nothing to preserve; and the two idealized programs, from memories agreeing on the arguments,
  end with the result buffer at the same function `Cert.Layer.layer` of the launch arrays.
-/
import proofs.«155374_j52587579572945_1_alg».proof.Defs
import proofs.«155374_j52587579572945_1_alg».proof.Proof.Gen.Kernel
import proofs.«155374_j52587579572945_1_alg».proof.Proof.Gen.Kernel.Skeleton
import proofs.«155374_j52587579572945_1_alg».proof.Proof.Gen.Kernel.Launch
import proofs.«155374_j52587579572945_1_alg».proof.Proof.Gen.Kernel.Points
import proofs.«155374_j52587579572945_1_alg».proof.Proof.Gen.Kernel.Frame
import proofs.«155374_j52587579572945_1_alg».proof.Proof.Gen.KernelIdeal
import proofs.«155374_j52587579572945_1_alg».proof.Proof.Gen.KernelIdeal.Skeleton
import proofs.«155374_j52587579572945_1_alg».proof.Proof.Gen.KernelIdeal.Launch
import proofs.«155374_j52587579572945_1_alg».proof.Proof.Gen.KernelIdeal.Points
import proofs.«155374_j52587579572945_1_alg».proof.Proof.Gen.KernelIdeal.Frame
import proofs.«155374_j52587579572945_1_alg».proof.Proof.Gen.ReferenceIdeal
import proofs.«155374_j52587579572945_1_alg».proof.Proof.Gen.ReferenceIdeal.Run
import proofs.«155374_j52587579572945_1_alg».proof.Proof.Gen.ReferenceIdeal.Read
import proofs.«155374_j52587579572945_1_alg».proof.Proof.Gen.Pre_finite_inputs
import proofs.«155374_j52587579572945_1_alg».proof.Proof.KernelValue
import proofs.«155374_j52587579572945_1_alg».proof.Proof.RefValue
import Idealize.ShloMosaic.Adequacy
import Idealize.ShloMosaic.Init

noncomputable section

namespace Cert.Proof

open Idealize.ShloMosaic Idealize.SL.Sem

/-- The kernel as printed runs to the end and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the result at the layer of the launch
    arrays: the kernel's run read through its two regions and the host stretch between them, the reference's run read
    one operation at a time. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v17_eq, Cert.ReferenceIdeal.Hand.result_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
